-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S6400000 : Shape := ⟨1, ![6400000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S6400000 32) (main_arg2 : IVec S6400000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S6400000 : Shape := ⟨1, ![6400000]⟩
abbrev S3x100000 : Shape := ⟨2, ![3, 100000]⟩
abbrev S_ : Shape := ⟨0, ![]⟩
abbrev S6400000x1 : Shape := ⟨2, ![6400000, 1]⟩
abbrev S3x6400000 : Shape := ⟨2, ![3, 6400000]⟩
abbrev S3x50000x128 : Shape := ⟨3, ![3, 50000, 128]⟩
abbrev S50000x128 : Shape := ⟨2, ![50000, 128]⟩
abbrev S3x1000x128 : Shape := ⟨3, ![3, 1000, 128]⟩
abbrev S1000x128 : Shape := ⟨2, ![1000, 128]⟩
abbrev S1x1000x128 : Shape := ⟨3, ![1, 1000, 128]⟩
abbrev S100000 : Shape := ⟨1, ![100000]⟩

abbrev nBuf : Space → Nat
  | .hbm => 30
  | .vmem => 4
  | .smem => 0
  | _ => 0

abbrev bufTy : (tb : Table) → Fin (tcTables nBuf tb) → BufTy
  | .hbm, ⟨0, _⟩ => ⟨S100000x3, .f32⟩
  | .hbm, ⟨1, _⟩ => ⟨S6400000, .i32⟩
  | .hbm, ⟨2, _⟩ => ⟨S6400000, .i32⟩
  | .hbm, ⟨3, _⟩ => ⟨S3x100000, .f32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S3x6400000, .f32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S3x6400000, .f32⟩
  | .hbm, ⟨22, _⟩ => ⟨S3x6400000, .f32⟩
  | .hbm, ⟨23, _⟩ => ⟨S3x50000x128, .f32⟩
  | .hbm, ⟨24, _⟩ => ⟨S50000x128, .f32⟩
  | .hbm, ⟨25, _⟩ => ⟨S6400000, .f32⟩
  | .hbm, ⟨26, _⟩ => ⟨S_, .f32⟩
  | .hbm, ⟨27, _⟩ => ⟨S100000, .f32⟩
  | .hbm, ⟨28, _⟩ => ⟨S6400000x1, .i32⟩
  | .hbm, ⟨29, _⟩ => ⟨S100000, .f32⟩
  | .local _ .vmem, ⟨0, _⟩ => ⟨S3x1000x128, .f32⟩
  | .local _ .vmem, ⟨1, _⟩ => ⟨S3x1000x128, .f32⟩
  | .local _ .vmem, ⟨2, _⟩ => ⟨S1000x128, .f32⟩
  | .local _ .vmem, ⟨3, _⟩ => ⟨S1000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S100000x3_S3x100000_1_0 : S100000x3.Transposes [1, 0] S3x100000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S3x6400000_S3x50000x128 : S3x6400000.ShapeCasts S3x50000x128
  inb_S3x1000x128_S3x1000x128_0_0_0 : ∀ a, (![0, 0, 0] : Fin 3 → Nat) a + S3x1000x128.size a ≤ S3x1000x128.size a
  h_S3x1000x128 : 0 < S3x1000x128.numel
  shapeCasts_S3x1000x128_S3x1000x128 : S3x1000x128.ShapeCasts S3x1000x128
  slices_S3x1000x128_o0_0_0_S1x1000x128 : S3x1000x128.Slices ![0, 0, 0] S1x1000x128
  shapeCasts_S1x1000x128_S1000x128 : S1x1000x128.ShapeCasts S1000x128
  slices_S3x1000x128_o1_0_0_S1x1000x128 : S3x1000x128.Slices ![1, 0, 0] S1x1000x128
  slices_S3x1000x128_o2_0_0_S1x1000x128 : S3x1000x128.Slices ![2, 0, 0] S1x1000x128
  inb_S1000x128_S1000x128_0_0 : ∀ a, (![0, 0] : Fin 2 → Nat) a + S1000x128.size a ≤ S1000x128.size a
  h_S1000x128 : 0 < S1000x128.numel
  shapeCasts_S50000x128_S6400000 : S50000x128.ShapeCasts S6400000
  bcast_S_S100000 : S_.BroadcastsInDim S100000 (![] : Fin 0 → Fin S100000.rank)
  gather_S3x100000_S6400000x1_S3x6400000_0_1_n_n_1_1_31_wf : GatherDims.WF S3x100000 S6400000x1 S3x6400000 [0] [1] [] [1] [] 1 ![3, 1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1000x128.size a ≤ S3x50000x128.size a
  hwx0_0 : ∀ i : grid0.Coords, EltTy.bits .f32 = 32 ∨ (Rect.block (s := S3x50000x128) S3x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)

variable [Facts₀]

def gather_S3x100000_S6400000x1_S3x6400000_0_1_n_n_1_1_31 : GatherDims S3x100000 S6400000x1 S3x6400000 where
  offsetDims := [0]
  collapsedSliceDims := [1]
  operandBatchingDims := []
  startIndicesBatchingDims := []
  startIndexMap := [1]
  indexVectorDim := 1
  sliceSizes := ![3, 1]
  wf := gather_S3x100000_S6400000x1_S3x6400000_0_1_n_n_1_1_31_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v16) S3x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x3 : Shape := ⟨2, ![100000, 3]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S100000 : Shape := ⟨1, ![100000]⟩

abbrev nBuf : Space → Nat
  | .hbm => 41
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S6400000, .i32⟩
  | .hbm, ⟨2, _⟩ => ⟨S6400000, .i32⟩
  | .hbm, ⟨3, _⟩ => ⟨S_, .i32⟩
  | .hbm, ⟨4, _⟩ => ⟨S6400000, .i32⟩
  | .hbm, ⟨5, _⟩ => ⟨S6400000, .i1⟩
  | .hbm, ⟨6, _⟩ => ⟨S_, .i32⟩
  | .hbm, ⟨7, _⟩ => ⟨S6400000, .i32⟩
  | .hbm, ⟨8, _⟩ => ⟨S6400000, .i32⟩
  | .hbm, ⟨9, _⟩ => ⟨S6400000, .i32⟩
  | .hbm, ⟨10, _⟩ => ⟨S6400000x1, .i32⟩
  | .hbm, ⟨11, _⟩ => ⟨S6400000x3, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000x3, .f32⟩
  | .hbm, ⟨21, _⟩ => ⟨S6400000x3, .f32⟩
  | .hbm, ⟨22, _⟩ => ⟨S6400000x3, .f32⟩
  | .hbm, ⟨23, _⟩ => ⟨S_, .f32⟩
  | .hbm, ⟨24, _⟩ => ⟨S6400000, .f32⟩
  | .hbm, ⟨25, _⟩ => ⟨S6400000, .f32⟩
  | .hbm, ⟨26, _⟩ => ⟨S_, .f32⟩
  | .hbm, ⟨27, _⟩ => ⟨S6400000, .f32⟩
  | .hbm, ⟨28, _⟩ => ⟨S6400000, .f32⟩
  | .hbm, ⟨29, _⟩ => ⟨S_, .f32⟩
  | .hbm, ⟨30, _⟩ => ⟨S6400000, .f32⟩
  | .hbm, ⟨31, _⟩ => ⟨S6400000, .f32⟩
  | .hbm, ⟨32, _⟩ => ⟨S6400000, .f32⟩
  | .hbm, ⟨33, _⟩ => ⟨S6400000, .f32⟩
  | .hbm, ⟨34, _⟩ => ⟨S_, .f32⟩
  | .hbm, ⟨35, _⟩ => ⟨S6400000, .f32⟩
  | .hbm, ⟨36, _⟩ => ⟨S6400000, .f32⟩
  | .hbm, ⟨37, _⟩ => ⟨S_, .f32⟩
  | .hbm, ⟨38, _⟩ => ⟨S100000, .f32⟩
  | .hbm, ⟨39, _⟩ => ⟨S6400000x1, .i32⟩
  | .hbm, ⟨40, _⟩ => ⟨S100000, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  bcast_S_S100000 : S_.BroadcastsInDim S100000 (![] : Fin 0 → Fin S100000.rank)
  gather_S100000x3_S6400000x1_S6400000x3_1_0_n_n_0_1_13_wf : GatherDims.WF S100000x3 S6400000x1 S6400000x3 [1] [0] [] [0] [] 1 ![1, 3]
  scatter_S100000_S6400000x1_S6400000_n_0_0_1_wf : ScatterDims.WF S100000 S6400000x1 S6400000 [] [0] [0] 1

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.HostStages.lean ====
/-
  The host operations around the kernel call.

  BEFORE the call the program transposes the position table to [3, 100000], wraps the receiver and the sender words
  (a negative word gets 100000 added), gathers for every edge the receiver's and the sender's column of the transposed
  table, subtracts them (`dispArray`: [3, 6400000], coordinate-major) and re-lays the result as [3, 50000, 128]
  (`dispGrid`): that is the array the kernel call finds.

  AFTER the call it re-lays the kernel's result [50000, 128] as a flat [6400000] array of edge energies and adds every
  edge's energy onto its receiver's entry of a zero array of 100000 entries (`scatterEnergies`).
-/
import proofs.«160772_j68332929679956_2_alg».proof.Proof.Gen.KernelIdeal

noncomputable section

open Idealize.ShloMosaic Idealize.SL.Sem

namespace Cert.KernelIdeal.Hand

open Cert.KernelIdeal Cert.KernelIdeal.Facts₀

variable {F : FTy → Type} [FloatOps F]

/-- An index array wrapped (a negative word gets 100000 added) and stood up as a column [6400000, 1]. -/
def wrapCol (x : (⟨S6400000, .i32⟩ : BufTy).Contents (Elt F)) : (⟨S6400000x1, .i32⟩ : BufTy).Contents (Elt F) :=
  broadcastInDim S6400000x1 ![0] bcast_S6400000_S6400000x1_0
    (select (cmpi .slt x (broadcastInDim S6400000 ![] bcast_S_S6400000 (constantI S_ 32 0#32)))
      (addi x (broadcastInDim S6400000 ![] bcast_S_S6400000 (constantI S_ 32 100000#32))) x)

/-- The displacement of every edge, coordinate-major: receiver's column of the transposed table minus sender's. -/
def dispArray (x0 : (⟨S100000x3, .f32⟩ : BufTy).Contents (Elt F)) (x1 x2 : (⟨S6400000, .i32⟩ : BufTy).Contents (Elt F)) :
    (⟨S3x6400000, .f32⟩ : BufTy).Contents (Elt F) :=
  subf (Host.gather gather_S3x100000_S6400000x1_S3x6400000_0_1_n_n_1_1_31
      (transpose S3x100000 [1, 0] x0 transposes_S100000x3_S3x100000_1_0) (wrapCol x2))
    (Host.gather gather_S3x100000_S6400000x1_S3x6400000_0_1_n_n_1_1_31
      (transpose S3x100000 [1, 0] x0 transposes_S100000x3_S3x100000_1_0) (wrapCol x1))

/-- The same, laid out (coordinate, row, lane): what the kernel call reads. -/
def dispGrid (x0 : (⟨S100000x3, .f32⟩ : BufTy).Contents (Elt F)) (x1 x2 : (⟨S6400000, .i32⟩ : BufTy).Contents (Elt F)) :
    (⟨S3x50000x128, .f32⟩ : BufTy).Contents (Elt F) :=
  shapeCast S3x50000x128 (dispArray x0 x1 x2) shapeCasts_S3x6400000_S3x50000x128

/-- The edge energies laid out [50000, 128], flattened and added onto their receivers' entries of a zero array. -/
def scatterEnergies (x2 : (⟨S6400000, .i32⟩ : BufTy).Contents (Elt F)) (g : (⟨S50000x128, .f32⟩ : BufTy).Contents (Elt F)) :
    (⟨S100000, .f32⟩ : BufTy).Contents (Elt F) :=
  Host.scatterAdd scatter_S100000_S6400000x1_S6400000_n_0_0_1
    (broadcastInDim S100000 ![] bcast_S_S100000 (constant S_ .f32 0x00000000#32))
    (broadcastInDim S6400000x1 ![0] bcast_S6400000_S6400000x1_0 x2)
    (shapeCast S6400000 g shapeCasts_S50000x128_S6400000)

end Cert.KernelIdeal.Hand

end
-- ==== Proof.HostRead.lean ====
/-
  The host operations around the kernel call, read off the program's run.

  The lines before the call leave, in the array the call reads, the displacement of every edge laid out
  (coordinate, row, lane) — `dispGrid` of the three arguments (`V_dispGrid`). The lines after the call take the
  call's result array and the receivers (an argument, which no line writes) and leave the program's result at
  `scatterEnergies` of the two (`tail_result`).
-/
import proofs.«160772_j68332929679956_2_alg».proof.Proof.Gen.KernelIdeal.Frame
import proofs.«160772_j68332929679956_2_alg».proof.Proof.HostStages
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

set_option maxHeartbeats 4000000 in
/-- THE ARRAY THE KERNEL CALL FINDS is `dispGrid` of the three arguments as launched. -/
theorem V_dispGrid (c : Dev nD) :
    V m c main_v16 = dispGrid (m ((c : Thread nD τ).loc main_arg0)) (m ((c : Thread nD τ).loc main_arg1)) (m ((c : Thread nD τ).loc main_arg2)) := by
  show StableHlo.after hostOps0 (fun b => m (c, b)) (Proc.devRef .tc main_v16) = _
  after_results_simp
  rfl

/-- THE PROGRAM'S RESULT after the lines that follow the call: `scatterEnergies` of the receivers as launched and of
    the kernel's result array. -/
theorem tail_result (c : Dev nD) :
    Pipeline.afterTail₀ cfgs (dats m) 0 (V0 m) [hostOps1] c main_v21
      = scatterEnergies (m ((c : Thread nD τ).loc main_arg2)) ((dats m 0 c).arrAt 1 cfg0.N) := by
  unfold Pipeline.afterTail₀
  show StableHlo.after hostOps1 _ (Proc.devRef .tc main_v21) = _
  after_results
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h17 : Pipeline.withArrays (cfgs 0).spec c (V0 m c) (fun w => (dats m 0 c).arrAt w (cfgs 0).N) (Proc.devRef .tc main_v17)
      = (dats m 0 c).arrAt 1 cfg0.N :=
    Pipeline.withArrays_arr spec0 launch0.win.arr_inj c (V0 m c) _ 1
  rw [h2, h17]
  rfl

end Cert.KernelIdeal.Hand

end
-- ==== Proof.PairEnergy.lean ====
/-
  The vocabulary both programs are read in: one edge of the graph at a time.

  The inputs are a table of 100000 positions (three coordinates each) and, per edge, a sender word and a receiver word
  (32-bit integers). Both programs first wrap a negative word by adding 100000 (`wrapWord`), and the gather that
  follows reads the wrapped word signed and clamps it into the table (`rowOf`). The displacement of an edge is the
  receiver's position minus the sender's, coordinate by coordinate (`disp`).

  From the three displacement coordinates d0, d1, d2 the kernel computes (`edgeEnergy`, at any float instance)

      s = (d0·d0 + d1·d1) + d2·d2,   u = 1 / s,   w = ((1·u)·u)·u,   2·(w·w − w),

  and the reference (`refEnergy`, on the extended reals)

      s' = 0 + Σ_k dk·dk,   v = (1 / √s') ^ 6,   2·(v·v − v).
-/
import Idealize.ShloMosaic.PureOps
import Idealize.ShloMosaic.PureOps.Ideal
import Idealize.ShloMosaic.Lib.ValueIdx

noncomputable section

open scoped BigOperators

namespace Cert.PairEnergy

open Idealize.ShloMosaic Idealize.ShloMosaic.ValueIdx

/-- A negative index word counts from the end of the table: 100000 is added to it. -/
def wrapWord (x : BitVec 32) : BitVec 32 :=
  Scalar.select (IntOp.cmpi .slt x 0#32) (IntOp.addi x 100000#32) x

/-- The row of the table a gather reads for an index word: the wrapped word, read signed and clamped into the table. -/
def rowOf (x : BitVec 32) : Fin 100000 := ⟨min (wrapWord x).toInt.toNat (100000 - 1), by omega⟩

/-- Coordinate `k` of an edge's displacement: the receiver's position minus the sender's. -/
def disp (pos : (⟨2, ![100000, 3]⟩ : Shape).Idx → EReal) (s r : BitVec 32) (k : Fin 3) : EReal :=
  pos (ix2 (rowOf r) k) - pos (ix2 (rowOf s) k)

variable {F : FTy → Type} [FloatOps F]

/-- The pair energy of one edge from the three coordinates of its displacement, in the body's own order of
    operations: the squared length, its reciprocal, the reciprocal cubed (times the literal 1.0), and twice the
    difference of that cube's square and the cube. -/
def edgeEnergy (d0 d1 d2 : F .f32) : F .f32 :=
  FloatOps.mulf (FloatOps.ofBits .f32 0x40000000#32)
    (FloatOps.subf
      (FloatOps.mulf
        (FloatOps.mulf (FloatOps.mulf (FloatOps.mulf (FloatOps.ofBits .f32 0x3F800000#32)
          (FloatOps.divf (FloatOps.ofBits .f32 0x3F800000#32)
            (FloatOps.addf (FloatOps.addf (FloatOps.mulf d0 d0) (FloatOps.mulf d1 d1)) (FloatOps.mulf d2 d2))))
          (FloatOps.divf (FloatOps.ofBits .f32 0x3F800000#32)
            (FloatOps.addf (FloatOps.addf (FloatOps.mulf d0 d0) (FloatOps.mulf d1 d1)) (FloatOps.mulf d2 d2))))
          (FloatOps.divf (FloatOps.ofBits .f32 0x3F800000#32)
            (FloatOps.addf (FloatOps.addf (FloatOps.mulf d0 d0) (FloatOps.mulf d1 d1)) (FloatOps.mulf d2 d2))))
        (FloatOps.mulf (FloatOps.mulf (FloatOps.mulf (FloatOps.ofBits .f32 0x3F800000#32)
          (FloatOps.divf (FloatOps.ofBits .f32 0x3F800000#32)
            (FloatOps.addf (FloatOps.addf (FloatOps.mulf d0 d0) (FloatOps.mulf d1 d1)) (FloatOps.mulf d2 d2))))
          (FloatOps.divf (FloatOps.ofBits .f32 0x3F800000#32)
            (FloatOps.addf (FloatOps.addf (FloatOps.mulf d0 d0) (FloatOps.mulf d1 d1)) (FloatOps.mulf d2 d2))))
          (FloatOps.divf (FloatOps.ofBits .f32 0x3F800000#32)
            (FloatOps.addf (FloatOps.addf (FloatOps.mulf d0 d0) (FloatOps.mulf d1 d1)) (FloatOps.mulf d2 d2)))))
      (FloatOps.mulf (FloatOps.mulf (FloatOps.mulf (FloatOps.ofBits .f32 0x3F800000#32)
          (FloatOps.divf (FloatOps.ofBits .f32 0x3F800000#32)
            (FloatOps.addf (FloatOps.addf (FloatOps.mulf d0 d0) (FloatOps.mulf d1 d1)) (FloatOps.mulf d2 d2))))
          (FloatOps.divf (FloatOps.ofBits .f32 0x3F800000#32)
            (FloatOps.addf (FloatOps.addf (FloatOps.mulf d0 d0) (FloatOps.mulf d1 d1)) (FloatOps.mulf d2 d2))))
          (FloatOps.divf (FloatOps.ofBits .f32 0x3F800000#32)
            (FloatOps.addf (FloatOps.addf (FloatOps.mulf d0 d0) (FloatOps.mulf d1 d1)) (FloatOps.mulf d2 d2)))))

/-- The reference's pair energy of one edge, on the extended reals: the length is the square root of the sum (started
    at zero) of the squared coordinates, its reciprocal is raised to the float power 6.0, and the energy is twice the
    difference of that power's square and the power. -/
def refEnergy (d : Fin 3 → EReal) : EReal :=
  Ideal.ofBits .f32 0x40000000#32 *
    (Ideal.pow (Ideal.div (Ideal.ofBits .f32 0x3F800000#32)
        (Ideal.sqrt (Ideal.ofBits .f32 0x00000000#32 + ∑ k : Fin 3, d k * d k))) (Ideal.ofBits .f32 0x40C00000#32)
      * Ideal.pow (Ideal.div (Ideal.ofBits .f32 0x3F800000#32)
        (Ideal.sqrt (Ideal.ofBits .f32 0x00000000#32 + ∑ k : Fin 3, d k * d k))) (Ideal.ofBits .f32 0x40C00000#32)
      - Ideal.pow (Ideal.div (Ideal.ofBits .f32 0x3F800000#32)
        (Ideal.sqrt (Ideal.ofBits .f32 0x00000000#32 + ∑ k : Fin 3, d k * d k))) (Ideal.ofBits .f32 0x40C00000#32))

end Cert.PairEnergy

end
-- ==== Proof.EdgeEnergy.lean ====
/-
  The kernel body, one edge at a time.

  A block of the kernel's input holds, for 1000 × 128 edges, the three coordinates of the edge's displacement
  (receiver position minus sender position), coordinate-major: entry (k, p, q) is coordinate k of edge (p, q). The
  body cuts the block into its three coordinate planes, and every further operation is pointwise, so entry (p, q) of
  what it stores is one scalar function of the three numbers (0, p, q), (1, p, q), (2, p, q) of the block:

      s = (d0·d0 + d1·d1) + d2·d2,   u = 1 / s,   w = ((1·u)·u)·u,   energy = 2·(w·w − w).

  `edgeEnergy` is that scalar function, written with the float operations of any instance; `body_apply` says the
  body's stored value at (p, q) is `edgeEnergy` of the block's three entries there.
-/
import proofs.«160772_j68332929679956_2_alg».proof.Proof.Gen.KernelIdeal.Skeleton
import proofs.«160772_j68332929679956_2_alg».proof.Proof.PairEnergy
import Idealize.ShloMosaic.Lib.Pipeline.Value
import Idealize.ShloMosaic.Lib.ValueIdx

noncomputable section

namespace Cert.KernelIdeal.Hand

open Idealize.ShloMosaic Idealize.ShloMosaic.ValueIdx Idealize.SL.Sem
open Cert.KernelIdeal Cert.KernelIdeal.Gen Cert.PairEnergy

variable {F : FTy → Type} [FloatOps F]

/-- Coordinate plane `k` of a block — the slice at offset `k` on the leading axis with that unit axis dropped — read
    at (p, q) is the block's entry (k, p, q). -/
theorem plane_apply (k : Fin 3) (x : S3x1000x128.Idx → F .f32) (hs : S3x1000x128.Slices ![k.val, 0, 0] S1x1000x128)
    (hc : S1x1000x128.ShapeCasts S1000x128) (p : Fin 1000) (q : Fin 128) :
    shapeCast S1000x128 (extractStridedSlice S1x1000x128 ![k.val, 0, 0] x hs) hc (ix2 p q) = x (ix3 k p q) := by
  refine (shapeCast_apply _ hc (ix2 p q) (ix3 (0 : Fin 1) p q) ?_).trans ?_
  · rw [Shape.rowMajor_val_three, Shape.rowMajor_val_two]
    show ((0 : Nat) * 1000 + p.val) * 128 + q.val = p.val * 128 + q.val
    omega
  · refine extractStridedSlice_apply _ x hs _ (ix3 k p q) fun a => ?_
    match a with
    | ⟨0, _⟩ => show k.val = k.val + 0; omega
    | ⟨1, _⟩ => show p.val = 0 + p.val; omega
    | ⟨2, _⟩ => show q.val = 0 + q.val; omega

/-- THE BODY AT AN EDGE: what the body stores at (p, q) is the pair energy of the three displacement coordinates the
    block holds for that edge. -/
theorem body_apply (x : Vec F S3x1000x128 .f32) (p : Fin 1000) (q : Fin 128) :
    k0_pay1 x (ix2 p q) = edgeEnergy (x (ix3 0 p q)) (x (ix3 1 p q)) (x (ix3 2 p q)) := by
  have e0 := plane_apply (F := F) 0 (shapeCast S3x1000x128 x Facts₀.shapeCasts_S3x1000x128_S3x1000x128)
    Facts₀.slices_S3x1000x128_o0_0_0_S1x1000x128 Facts₀.shapeCasts_S1x1000x128_S1000x128 p q
  have e1 := plane_apply (F := F) 1 (shapeCast S3x1000x128 x Facts₀.shapeCasts_S3x1000x128_S3x1000x128)
    Facts₀.slices_S3x1000x128_o1_0_0_S1x1000x128 Facts₀.shapeCasts_S1x1000x128_S1000x128 p q
  have e2 := plane_apply (F := F) 2 (shapeCast S3x1000x128 x Facts₀.shapeCasts_S3x1000x128_S3x1000x128)
    Facts₀.slices_S3x1000x128_o2_0_0_S1x1000x128 Facts₀.shapeCasts_S1x1000x128_S1000x128 p q
  have hx := shapeCast_self x Facts₀.shapeCasts_S3x1000x128_S3x1000x128
  unfold k0_pay1
  exact congr (congr (congrArg edgeEnergy (e0.trans (congrFun hx _))) (e1.trans (congrFun hx _))) (e2.trans (congrFun hx _))

end Cert.KernelIdeal.Hand

end
-- ==== Proof.EnergyGrid.lean ====
/-
  From blocks to the array: what the kernel leaves in its result array.

  The kernel's input array holds the displacement coordinates of all 6400000 edges laid out [3, 50000, 128]
  (coordinate, row, lane), its result array the energies laid out [50000, 128]. Grid point t reads the block of rows
  1000·t … 1000·t + 999 (all three coordinates, all lanes) and writes back the block of the same rows of the result.
  The body is pointwise (`body_apply`), so what point t writes back is block t of ONE function of the whole input
  array: `energyGrid A (r, c) = edgeEnergy (A (0, r, c)) (A (1, r, c)) (A (2, r, c))`. The 50 blocks tile the result
  array (row r lies in block r / 1000), so after the run the result array IS `energyGrid` of the input array.
-/
import proofs.«160772_j68332929679956_2_alg».proof.Proof.Gen.KernelIdeal.Frame
import proofs.«160772_j68332929679956_2_alg».proof.Proof.EdgeEnergy
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.PairEnergy

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The energies of all edges, from the displacement array laid out (coordinate, row, lane). -/
def energyGrid (A : S3x50000x128.Idx → Elt F .f32) : S50000x128.Idx → Elt F .f32 :=
  fun i => edgeEnergy (A (ix3 (0 : Fin 3) (i 0) (i 1))) (A (ix3 (1 : Fin 3) (i 0) (i 1))) (A (ix3 (2 : Fin 3) (i 0) (i 1)))

/-- The printed index maps, decided over the 50 grid points: the input block sits at coordinate block 0, lane block 0
    and the same row block as the output block, whose lane block is 0 and whose row block is below 50. -/
theorem block_indices : ∀ t : Fin cfg0.N, win0_0.index t (0 : Fin 3) = 0
    ∧ win0_0.index t (1 : Fin 3) = win0_1.index t (0 : Fin 2)
    ∧ win0_0.index t (2 : Fin 3) = 0
    ∧ win0_1.index t (1 : Fin 2) = 0
    ∧ win0_1.index t (0 : Fin 2) ≤ 49 :=
  (by decide +kernel : ∀ t : Fin grid0.N, _)

/-- Every row block is some grid point's. -/
theorem block_onto : ∀ b : Fin 50, ∃ t : Fin cfg0.N, win0_1.index t (0 : Fin 2) = b.val :=
  (by decide +kernel : ∀ b : Fin 50, ∃ t : Fin grid0.N, win0_1.index t (0 : Fin 2) = b.val)

/-- The input block at point `t`, read at (k, p, q), is the input array at coordinate k, row (row block)·1000 + p, lane q. -/
theorem iblk_apply (c : Dev nD) (t : Fin cfg0.N) (k : Fin 3) (p : Fin 1000) (q : Fin 128) (r : Fin 50000) (q' : Fin 128)
    (hr : r.val = win0_1.index t (0 : Fin 2) * 1000 + p.val) (hq : q'.val = q.val) :
    (iblk m c 0 t : Vec F S3x1000x128 .f32) (ix3 k p q) = (V m c main_v16 : S3x50000x128.Idx → Elt F .f32) (ix3 k r q') := by
  obtain ⟨e0, e1, e2, e3, e4⟩ := block_indices t
  unfold iblk
  rw [View.read_apply]
  show V m c main_v16 _ = V m c main_v16 _
  congr 1
  funext a
  apply Fin.ext
  match a with
  | ⟨0, _⟩ => show win0_0.index t (0 : Fin 3) * 3 + 1 * k.val = k.val; omega
  | ⟨1, _⟩ => show win0_0.index t (1 : Fin 3) * 1000 + 1 * p.val = r.val; omega
  | ⟨2, _⟩ => show win0_0.index t (2 : Fin 3) * 128 + 1 * q.val = q'.val; omega

/-- WHAT POINT `t` WRITES BACK is block `t` of `energyGrid` of the input array as the region finds it. -/
theorem flushed_eq (c : Dev nD) (t : Fin cfg0.N) :
    (dats m 0 c).flushed 1 t = ((cfg0.win 1).blk t).view.read (Elt F) (energyGrid (V m c main_v16)) := by
  show (cfg0.win 1).cut (grid0.coords t) ((dats m 0 c).after 1 t) = _
  rw [after0_1]
  unfold out0_1
  rw [View.canon_unit_zero zeros2]
  simp only [View.ld_unit_zero (S := S3x1000x128) zeros3]
  obtain ⟨e0, e1, e2, e3, e4⟩ := block_indices t
  funext j
  obtain ⟨p, q, rfl⟩ : ∃ (p : Fin 1000) (q : Fin 128), j = ix2 p q := ⟨j 0, j 1, eq_ix2 j⟩
  refine (body_apply (iblk m c 0 t) p q).trans ?_
  rw [View.read_apply, cast_eq]
  unfold energyGrid
  have h0 : ((((cfg0.win 1).blk t).view.emb (ix2 p q)) 0).val = win0_1.index t (0 : Fin 2) * 1000 + p.val := by
    show win0_1.index t (0 : Fin 2) * 1000 + 1 * p.val = _; omega
  have h1 : ((((cfg0.win 1).blk t).view.emb (ix2 p q)) 1).val = q.val := by
    show win0_1.index t (1 : Fin 2) * 128 + 1 * q.val = _; omega
  exact congr (congr (congrArg edgeEnergy (iblk_apply m c t 0 p q _ _ h0 h1)) (iblk_apply m c t 1 p q _ _ h0 h1))
    (iblk_apply m c t 2 p q _ _ h0 h1)

/-- An index of the result array is in point `t`'s block iff each coordinate is in the block's range on its axis. -/
theorem mem_blk (t : Fin cfg0.N) (i : S50000x128.Idx) :
    i ∈ ((cfg0.win 1).blk t).view.set ↔ ∀ a : Fin 2, win0_1.index t a * S1000x128.size a ≤ (i a).val
      ∧ (i a).val < win0_1.index t a * S1000x128.size a + S1000x128.size a := by
  show i ∈ ((View.whole main_v17).slice (win0_1.rect t)).set ↔ _
  rw [View.set_slice_whole, Rect.mem_set_unit]
  exact Iff.rfl

/-- THE RESULT ARRAY after the run: `energyGrid` of the input array (row r lies in the block of point r / 1000). -/
theorem final_grid (c : Dev nD) : (dats m 0 c).arrAt 1 cfg0.N = energyGrid (V m c main_v16) :=
  (dats m 0 c).arrAt_eq_of_cover 1 (energyGrid (V m c main_v16)) (fun t _ => flushed_eq m c t) fun i => by
    have hi0 : (i 0).val < 50000 := (i 0).isLt
    have hi1 : (i 1).val < 128 := (i 1).isLt
    obtain ⟨t, ht⟩ := block_onto ⟨(i 0).val / 1000, by omega⟩
    obtain ⟨e0, e1, e2, e3, e4⟩ := block_indices t
    have ht' : win0_1.index t (0 : Fin 2) = (i 0).val / 1000 := ht
    refine ⟨t, flush0_1 t, ?_⟩
    rw [mem_blk]
    intro a
    match a with
    | ⟨0, _⟩ => show win0_1.index t (0 : Fin 2) * 1000 ≤ (i 0).val ∧ (i 0).val < win0_1.index t (0 : Fin 2) * 1000 + 1000; omega
    | ⟨1, _⟩ => show win0_1.index t (1 : Fin 2) * 128 ≤ (i 1).val ∧ (i 1).val < win0_1.index t (1 : Fin 2) * 128 + 128; omega

end Cert.KernelIdeal.Hand

end
-- ==== Proof.KernelRun.lean ====
/-
  The kernel program's run, read: its result as ONE function of the three arguments.

  The program's result is the host's scatter of the edge energies (`scatterEnergies`) applied to the receivers and to
  the kernel call's result array, which is `energyGrid` of the array the call reads, which is `dispGrid` of the
  arguments: `programResult`. Every weakly fair execution ends with the result buffer at `programResult` of the
  arguments as launched and the arguments unchanged.
-/
import proofs.«160772_j68332929679956_2_alg».proof.Proof.Gen.KernelIdeal.Frame
import proofs.«160772_j68332929679956_2_alg».proof.Proof.HostRead
import proofs.«160772_j68332929679956_2_alg».proof.Proof.EnergyGrid

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- The program's result from its three arguments (positions, senders, receivers). -/
def programResult (x0 : (⟨S100000x3, .f32⟩ : BufTy).Contents (Elt F)) (x1 x2 : (⟨S6400000, .i32⟩ : BufTy).Contents (Elt F)) :
    (⟨S100000, .f32⟩ : BufTy).Contents (Elt F) :=
  scatterEnergies x2 (energyGrid (dispGrid x0 x1 x2))

variable (m : (ℓ : Loc nD τ sig) → Buf (Elt F) ℓ) (ρ : Dev nD → PrngReg)

/-- The result buffer after the lines that follow the call, as `programResult` of the arguments as launched. -/
theorem tail_programResult (c : Dev nD) :
    Pipeline.afterTail₀ cfgs (dats m) 0 (V0 m) [hostOps1] c main_v21
      = programResult (m ((c : Thread nD τ).loc main_arg0)) (m ((c : Thread nD τ).loc main_arg1)) (m ((c : Thread nD τ).loc main_arg2)) := by
  rw [tail_result, final_grid, V_dispGrid]
  rfl

/-- THE RUN: every weakly fair execution terminates with the result at `programResult` of the arguments and the
    arguments unchanged. -/
theorem run : θ_run defs (onTc (τ := τ) (main (F := F))) ⟨m, fun _ => 0, ρ⟩ fun r => ∀ c : Dev nD,
      r.2.mem ((c.tc : Thread nD τ).loc main_v21)
        = programResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (tail_programResult m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.LibColumnGather.lean ====
/-
  THE HOST'S COLUMN GATHER AND ITS MATRIX TRANSPOSE, READ AT AN INDEX, at generic extents and a generic element type.

  A table of `N` points with `C` coordinates each can be stored point-major, as `[N, C]`, or coordinate-major, as
  `[C, N]`; the second is the transpose of the first. An edge list of `E` edges is an array of `E × 1` integer words,
  each naming a point.

  The COLUMN GATHER takes, for every edge `e`, column number `idx[e, 0]` of a coordinate-major table `[C, N]`; the
  result is `[C, E]`, one column of `C` coordinates per edge. The operand's axis 1 is collapsed and named by the start
  index map, its axis 0 is the offset axis, and the slices are `C × 1`. The start word is read signed and clamped into
  `[0, N − 1]`. So the result at `(d, e)` is the operand at row `d` and at the clamped column:
  `gather_cols_apply`. It is the mirror image of the row gather of a point-major table, with the two operand axes
  and the two result axes exchanged.

  The TRANSPOSE of a matrix `[A, B]` by the permutation `[1, 0]` is the matrix `[B, A]` whose element at `(b, a)` is
  the operand's at `(a, b)`: `transpose_swap_apply`. Together the two say that a column gather of the transposed
  table reads the same element as a row gather of the table itself.

  The dimension numbers are the builder `gathCols` at generic extents, their side conditions a parameter; a record
  written with the same literal lists is the builder by `rfl` (the example after the builder).
-/
import Idealize.ShloMosaic.PureOps.Ideal
import Idealize.ShloMosaic.PureOps.Contract
import Idealize.ShloMosaic.Lib.ValueIdx

noncomputable section

namespace Idealize.ShloMosaic.ColumnGather

open Idealize.ShloMosaic Idealize.ShloMosaic.ValueIdx

variable {α : Type}

/-! ## The column gather of a coordinate-major table -/

/-- The dimension numbers of `x[:, idx[:, 0]]` for a table `[C, N]`, start indices `[E, 1]` and result `[C, E]`:
    axis 1 collapsed and named by the start index map, axis 0 the offset axis, slices `C × 1`. -/
abbrev gathCols (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- A record with the same literal lists is the builder. -/
example (C N E : Nat) (hwf : GatherDims.WF ⟨2, ![C, N]⟩ ⟨2, ![E, 1]⟩ ⟨2, ![C, E]⟩ [0] [1] [] [1] [] 1 ![C, 1]) :
    (⟨[0], [1], [], [], [1], 1, ![C, 1], hwf⟩ : GatherDims ⟨2, ![C, N]⟩ ⟨2, ![E, 1]⟩ ⟨2, ![C, E]⟩) = gathCols C N E hwf := rfl

/-- The row the gather reads: the result's own row. -/
theorem gathCols_operandIdx_zero {C N E w : Nat}
    (wf : GatherDims.WF ⟨2, ![C, N]⟩ ⟨2, ![E, 1]⟩ ⟨2, ![C, E]⟩ [0] [1] [] [1] [] 1 ![C, 1])
    (idx : IVec ⟨2, ![E, 1]⟩ w) (d : Fin C) (e : Fin E) :
    ((gathCols C N E wf).operandIdx (ix2 d e) idx 0).val = d.val := by
  show (gathCols C N E wf).start (ix2 d e) idx 0 + (gathCols C N E wf).batchCoord (ix2 d e) 0
    + (gathCols C N E wf).offCoord (ix2 d e) 0 = _
  rw [GatherDims.batchCoord_eq_zero _ _ _ List.not_mem_nil]
  unfold GatherDims.start
  rw [dif_neg (show (0 : Fin 2) ∉ ([1] : List (Fin 2)) by decide)]
  have hk : (0 : Fin 2) ∈ (gathCols C N E wf).sKept :=
    (GatherDims.mem_sKept _ _).mpr ⟨(show (0 : Fin 2) ∉ ([1] : List (Fin 2)) by decide), List.not_mem_nil⟩
  unfold GatherDims.offCoord
  rw [dif_pos hk]
  simp only [Nat.zero_add]
  rfl

/-- The column the gather reads for edge `e`: the start word, read signed and clamped. -/
theorem gathCols_operandIdx_one {C N E w : Nat}
    (wf : GatherDims.WF ⟨2, ![C, N]⟩ ⟨2, ![E, 1]⟩ ⟨2, ![C, E]⟩ [0] [1] [] [1] [] 1 ![C, 1])
    (idx : IVec ⟨2, ![E, 1]⟩ w) (d : Fin C) (e : Fin E) :
    ((gathCols C N E wf).operandIdx (ix2 d e) idx 1).val = min (idx (ix2 e 0)).toInt.toNat (N - 1) := by
  show (gathCols C N E wf).start (ix2 d e) idx 1 + (gathCols C N E wf).batchCoord (ix2 d e) 1
    + (gathCols C N E wf).offCoord (ix2 d e) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (gathCols C N E wf).startIndexMap from List.mem_singleton.mpr rfl)]
  have hsi : (gathCols C N E wf).siIdx (ix2 d e) ⟨List.idxOf (1 : Fin 2) (gathCols C N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE COLUMN GATHER READ AT `(d, e)`: row `d` of the column the start word `idx[e, 0]` names, read signed and
    clamped into `[0, N − 1]`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (d : Fin C) (e : Fin E) :
    Host.gather (gathCols C N E wf) x idx (ix2 d e)
      = x (ix2 d ⟨min (idx (ix2 e 0)).toInt.toNat (N - 1), by omega⟩) := by
  unfold Host.gather
  congr 1
  funext a
  refine Fin.ext ?_
  match a with
  | ⟨0, _⟩ => exact gathCols_operandIdx_zero wf idx d e
  | ⟨1, _⟩ => exact gathCols_operandIdx_one wf idx d e

/-! ## The transpose of a matrix -/

/-- THE TRANSPOSE OF A MATRIX READ AT `(b, a)`: the operand at `(a, b)`. Source axis 0 stands second in the
    permutation `[1, 0]`, so it reads the result's second coordinate; source axis 1 stands first, so it reads the
    result's first coordinate. -/
theorem transpose_swap_apply {A B : Nat} (h : (⟨2, ![A, B]⟩ : Shape).Transposes [1, 0] ⟨2, ![B, A]⟩)
    (x : (⟨2, ![A, B]⟩ : Shape).Idx → α) (b : Fin B) (a : Fin A) :
    transpose (⟨2, ![B, A]⟩ : Shape) [1, 0] x h (ix2 b a) = x (ix2 a b) := by
  unfold transpose
  congr 1
  funext c
  refine Fin.ext ?_
  match c with
  | ⟨0, _⟩ => rfl
  | ⟨1, _⟩ => rfl

end Idealize.ShloMosaic.ColumnGather

end
-- ==== Proof.KernelAtEdge.lean ====
/-
  The flat array of edge energies the first program computes, read at one edge.

  For edge `e` (of 6400000) the program

  * wraps the receiver word and the sender word (a negative word gets 100000 added) and stands each array up as a
    column `[6400000, 1]`: the column at `(e, 0)` is the wrapped word of edge `e`;
  * gathers, from the position table transposed to `[3, 100000]`, the column the wrapped word names (read signed and
    clamped into the table): at `(k, e)` that is coordinate `k` of the position in the row the word names;
  * subtracts the sender's from the receiver's: at `(k, e)` coordinate `k` of the edge's displacement;
  * re-lays the `[3, 6400000]` array as `[3, 50000, 128]`: `(k, r, c)` holds what `(k, 128·r + c)` held, because both
    sit at row-major position `6400000·k + 128·r + c`;
  * computes the energy of every `(r, c)` from its three coordinates, and re-lays the `[50000, 128]` result flat:
    position `e` holds what `(e / 128, e % 128)` held.

  Since `128·(e / 128) + e % 128 = e`, the flat array at `e` is the pair energy of the three displacement coordinates
  of edge `e`.
-/
import proofs.«160772_j68332929679956_2_alg».proof.Proof.HostStages
import proofs.«160772_j68332929679956_2_alg».proof.Proof.EnergyGrid
import proofs.«160772_j68332929679956_2_alg».proof.Proof.PairEnergy
import proofs.«160772_j68332929679956_2_alg».proof.Proof.LibColumnGather
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Facts₀ Cert.PairEnergy
open Idealize.SL.Sem

/-- The wrapped column at `(e, 0)` is the wrapped word of edge `e`. -/
theorem wrap_word (x : (⟨S6400000, .i32⟩ : BufTy).Contents (Elt Ideal)) (e : Fin 6400000) :
    wrapCol (F := Ideal) x (ix2 e 0) = wrapWord (x (ix1 e)) := by
  unfold wrapCol
  refine (broadcastInDim_apply _ bcast_S6400000_S6400000x1_0 _ (ix2 e 0) (ix1 e) (fun a => match a with
    | ⟨0, _⟩ => by show e.val = if (6400000 : Nat) = 1 then 0 else e.val; rw [if_neg (by decide)])).trans ?_
  rfl

/-- The program's gather record is the column gather of a `[3, 100000]` table by `[6400000, 1]` words. -/
theorem rec_eq : gather_S3x100000_S6400000x1_S3x6400000_0_1_n_n_1_1_31
    = ColumnGather.gathCols 3 100000 6400000 Facts₀.gather_S3x100000_S6400000x1_S3x6400000_0_1_n_n_1_1_31_wf := rfl

/-- The gathered column of the transposed table at `(k, e)`: coordinate `k` of the row the wrapped word names. -/
theorem gather_at (x0 : (⟨S100000x3, .f32⟩ : BufTy).Contents (Elt Ideal))
    (x : (⟨S6400000, .i32⟩ : BufTy).Contents (Elt Ideal)) (k : Fin 3) (e : Fin 6400000) :
    Host.gather gather_S3x100000_S6400000x1_S3x6400000_0_1_n_n_1_1_31
      (transpose S3x100000 [1, 0] x0 transposes_S100000x3_S3x100000_1_0) (wrapCol (F := Ideal) x) (ix2 k e)
      = x0 (ix2 (rowOf (x (ix1 e))) k) := by
  rw [rec_eq]
  refine (ColumnGather.gather_cols_apply (by decide) _ _ _ k e).trans ?_
  refine (ColumnGather.transpose_swap_apply _ x0 k _).trans ?_
  have hrow : (⟨min (wrapCol (F := Ideal) x (ix2 e 0)).toInt.toNat (100000 - 1), by omega⟩ : Fin 100000)
      = rowOf (x (ix1 e)) := by
    apply Fin.ext
    show min (wrapCol (F := Ideal) x (ix2 e 0)).toInt.toNat (100000 - 1)
      = min (wrapWord (x (ix1 e))).toInt.toNat (100000 - 1)
    rw [wrap_word]
  exact congrArg (fun r => x0 (ix2 r k)) hrow

/-- The displacement array at `(k, e)` is coordinate `k` of edge `e`'s displacement. -/
theorem disp_apply (x0 : (⟨S100000x3, .f32⟩ : BufTy).Contents (Elt Ideal))
    (x1 x2 : (⟨S6400000, .i32⟩ : BufTy).Contents (Elt Ideal)) (k : Fin 3) (e : Fin 6400000) :
    dispArray (F := Ideal) x0 x1 x2 (ix2 k e) = disp x0 (x1 (ix1 e)) (x2 (ix1 e)) k := by
  unfold dispArray disp
  show Host.gather gather_S3x100000_S6400000x1_S3x6400000_0_1_n_n_1_1_31
      (transpose S3x100000 [1, 0] x0 transposes_S100000x3_S3x100000_1_0) (wrapCol (F := Ideal) x2) (ix2 k e)
    - Host.gather gather_S3x100000_S6400000x1_S3x6400000_0_1_n_n_1_1_31
      (transpose S3x100000 [1, 0] x0 transposes_S100000x3_S3x100000_1_0) (wrapCol (F := Ideal) x1) (ix2 k e) = _
  rw [gather_at, gather_at]

/-- The re-laid displacement array at `(k, r, c)` is the displacement array at `(k, 128·r + c)`. -/
theorem dispGrid_apply (x0 : (⟨S100000x3, .f32⟩ : BufTy).Contents (Elt Ideal))
    (x1 x2 : (⟨S6400000, .i32⟩ : BufTy).Contents (Elt Ideal)) (k : Fin 3) (r : Fin 50000) (c : Fin 128)
    (e : Fin 6400000) (h : r.val * 128 + c.val = e.val) :
    dispGrid (F := Ideal) x0 x1 x2 (ix3 k r c) = dispArray (F := Ideal) x0 x1 x2 (ix2 k e) := by
  unfold dispGrid
  refine shapeCast_apply _ _ (ix3 k r c) (ix2 k e) ?_
  rw [Shape.rowMajor_val_two, Shape.rowMajor_val_three]
  show k.val * 6400000 + e.val = (k.val * 50000 + r.val) * 128 + c.val
  omega

/-- A `[50000, 128]` array re-laid flat, at `e`, is the array at `(e / 128, e % 128)`. -/
theorem flat_apply (g : S50000x128.Idx → Elt Ideal .f32) (e : Fin 6400000) :
    shapeCast S6400000 g shapeCasts_S50000x128_S6400000 (ix1 e)
      = g (ix2 (⟨e.val / 128, by have := e.isLt; omega⟩ : Fin 50000) (⟨e.val % 128, by omega⟩ : Fin 128)) := by
  refine shapeCast_apply _ _ _ _ ?_
  rw [Shape.rowMajor_val_two, Shape.rowMajor_val_one]
  show e.val / 128 * 128 + e.val % 128 = e.val
  omega

/-- The flat array of edge energies at edge `e`: the pair energy of the edge's three displacement coordinates. -/
theorem kernel_energy_apply (x0 : (⟨S100000x3, .f32⟩ : BufTy).Contents (Elt Ideal))
    (x1 x2 : (⟨S6400000, .i32⟩ : BufTy).Contents (Elt Ideal)) (e : Fin 6400000) :
    shapeCast S6400000 (energyGrid (F := Ideal) (dispGrid (F := Ideal) x0 x1 x2)) shapeCasts_S50000x128_S6400000 (ix1 e)
      = edgeEnergy (F := Ideal) (disp x0 (x1 (ix1 e)) (x2 (ix1 e)) 0) (disp x0 (x1 (ix1 e)) (x2 (ix1 e)) 1)
          (disp x0 (x1 (ix1 e)) (x2 (ix1 e)) 2) := by
  refine (flat_apply _ e).trans ?_
  have he : (⟨e.val / 128, by have := e.isLt; omega⟩ : Fin 50000).val * 128
      + (⟨e.val % 128, by omega⟩ : Fin 128).val = e.val := by
    show e.val / 128 * 128 + e.val % 128 = e.val
    omega
  unfold energyGrid
  exact congr (congr (congrArg (edgeEnergy (F := Ideal))
      ((dispGrid_apply x0 x1 x2 0 _ _ e he).trans (disp_apply x0 x1 x2 0 e)))
      ((dispGrid_apply x0 x1 x2 1 _ _ e he).trans (disp_apply x0 x1 x2 1 e)))
      ((dispGrid_apply x0 x1 x2 2 _ _ e he).trans (disp_apply x0 x1 x2 2 e))

end Cert.KernelIdeal.Hand

end
-- ==== Proof.LibEdgeScatter.lean ====
/-
  THE HOST'S ACCUMULATING SCATTER AND ITS ROW GATHER, READ AT AN INDEX, at the instance of the extended reals.

  An edge list of `E` edges over `N` nodes is an array of `E × 1` integer words. Two shape operations use it.

  The ROW GATHER takes row number `idx[e, 0]` of an operand for every edge `e`: of a flat array `[N]` (one element per
  node, result `[E]`) or of a table `[N, C]` (one row of `C` columns per node, result `[E, C]`). The start word is read
  signed and clamped into `[0, N − 1]`: `gather_flat_apply`, `gather_rows_apply`.

  The ACCUMULATING SCATTER adds update number `e` (an element of `[E]`, or a row of `[E, C]`) onto row `idx[e, 0]` of the
  operand. Its start word is read signed and NOT clamped: an update whose word is not a row number is dropped. So the
  result at row `v` is the operand there plus the sum of the updates over the edges `e` whose word, read signed, is
  `v`: `scatterAdd_flat_apply`, `scatterAdd_rows_apply`.

  The dimension numbers are the builders `gathFlat`, `gathRows`, `scatFlat`, `scatRows` at generic extents, their
  side conditions a parameter; a record written with the same literal lists is the builder by `rfl` (the examples after
  each builder). `resultIdx?_eq_some_iff` is general: an update lands on an index exactly when start plus window
  coordinate is that index on every axis.
-/
import Idealize.ShloMosaic.PureOps.Ideal
import Idealize.ShloMosaic.PureOps.Contract
import Idealize.ShloMosaic.Lib.ValueIdx

noncomputable section

open scoped BigOperators

namespace Idealize.ShloMosaic.EdgeScatter

open Idealize.ShloMosaic Idealize.ShloMosaic.ValueIdx

/-! ## The row gather of a table -/

section GatherRows
variable {α : Type}

/-- The dimension numbers of `x[idx[:, 0], :]` for a table `[N, C]`, start indices `[E, 1]` and result `[E, C]`:
    axis 0 collapsed and named by the start index map, axis 1 the offset axis, slices `1 × C`. -/
abbrev gathRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A record with the same literal lists is the builder. -/
example (N E C : Nat) (hwf : GatherDims.WF ⟨2, ![N, C]⟩ ⟨2, ![E, 1]⟩ ⟨2, ![E, C]⟩ [1] [0] [] [0] [] 1 ![1, C]) :
    (⟨[1], [0], [], [], [0], 1, ![1, C], hwf⟩ : GatherDims ⟨2, ![N, C]⟩ ⟨2, ![E, 1]⟩ ⟨2, ![E, C]⟩) = gathRows N E C hwf := rfl

/-- The row the gather reads for edge `e`: the start word, read signed and clamped. -/
theorem gathRows_operandIdx_zero {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    ((gathRows N E C wf).operandIdx (ix2 e j) idx 0).val = min (idx (ix2 e 0)).toInt.toNat (N - 1) := by
  show (gathRows N E C wf).start (ix2 e j) idx 0 + (gathRows N E C wf).batchCoord (ix2 e j) 0
    + (gathRows N E C wf).offCoord (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gathRows N E C wf).startIndexMap from List.mem_singleton.mpr rfl)]
  have hsi : (gathRows N E C wf).siIdx (ix2 e j) ⟨List.idxOf (0 : Fin 2) (gathRows N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column the gather reads: the result's own column. -/
theorem gathRows_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    ((gathRows N E C wf).operandIdx (ix2 e j) idx 1).val = j.val := by
  show (gathRows N E C wf).start (ix2 e j) idx 1 + (gathRows N E C wf).batchCoord (ix2 e j) 1
    + (gathRows N E C wf).offCoord (ix2 e j) 1 = _
  rw [GatherDims.batchCoord_eq_zero _ _ _ List.not_mem_nil]
  unfold GatherDims.start
  rw [dif_neg (show (1 : Fin 2) ∉ ([0] : List (Fin 2)) by decide)]
  have hk : (1 : Fin 2) ∈ (gathRows N E C wf).sKept :=
    (GatherDims.mem_sKept _ _).mpr ⟨(show (1 : Fin 2) ∉ ([0] : List (Fin 2)) by decide), List.not_mem_nil⟩
  unfold GatherDims.offCoord
  rw [dif_pos hk]
  simp only [Nat.zero_add]
  rfl

/-- THE ROW GATHER READ AT `(e, j)`: column `j` of the row the start word `idx[e, 0]` names, read signed and clamped
    into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gathRows N E C wf) x idx (ix2 e j)
      = x (ix2 ⟨min (idx (ix2 e 0)).toInt.toNat (N - 1), by omega⟩ j) := by
  unfold Host.gather
  congr 1
  funext a
  refine Fin.ext ?_
  match a with
  | ⟨0, _⟩ => exact gathRows_operandIdx_zero wf idx e j
  | ⟨1, _⟩ => exact gathRows_operandIdx_one wf idx e j

end GatherRows

/-! ## When an update lands on an index -/

section Lands
variable {s si u : Shape}

/-- An update lands on the operand index `i` exactly when its window's start plus its window coordinate is `i`'s
    coordinate on every axis (being inside the operand follows from being equal to an index of it). -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have h1 := congrFun (Option.some.inj h) a
      have h2 := congrArg Fin.val h1
      have h3 := hh a
      simp only at h2
      omega
    · exact absurd h (by simp)
  · intro h
    have hh : ∀ a, 0 ≤ d.start j idx a + (d.window j a : Int)
        ∧ d.start j idx a + (d.window j a : Int) < (s.size a : Int) := by
      intro a
      have := h a
      have := (i a).isLt
      omega
    rw [dif_pos hh]
    congr 1
    funext a
    refine Fin.ext ?_
    have := h a
    show (d.start j idx a + (d.window j a : Int)).toNat = (i a).val
    omega

end Lands

/-! ## The accumulating scatter of rows -/

section ScatterRows

/-- The dimension numbers of `x.at[idx[:, 0]].add(upd)` for a table `[N, C]`, scatter indices `[E, 1]` and updates
    `[E, C]`: the updates' axis 1 the window axis, the operand's axis 0 inserted and named by the index map. -/
abbrev scatRows (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A record with the same literal lists is the builder. -/
example (N E C : Nat) (hwf : ScatterDims.WF ⟨2, ![N, C]⟩ ⟨2, ![E, 1]⟩ ⟨2, ![E, C]⟩ [1] [0] [0] 1) :
    (⟨[1], [0], [0], 1, hwf⟩ : ScatterDims ⟨2, ![N, C]⟩ ⟨2, ![E, 1]⟩ ⟨2, ![E, C]⟩) = scatRows N E C hwf := rfl

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update `(e, c)` starts, on the row axis, at the word `idx[e, 0]` read signed … -/
theorem scatRows_start_zero : (scatRows N E C wf).start (ix2 e c) idx 0 = (idx (ix2 e 0)).toInt := by
  unfold ScatterDims.start
  rw [dif_pos (show (0 : Fin 2) ∈ (scatRows N E C wf).scatterDimsToOperandDims from List.mem_singleton.mpr rfl)]
  have hsi : (scatRows N E C wf).siIdx (ix2 e c) ⟨List.idxOf (0 : Fin 2) (scatRows N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at `0` on the column axis. -/
theorem scatRows_start_one : (scatRows N E C wf).start (ix2 e c) idx 1 = 0 := by
  unfold ScatterDims.start
  rw [dif_neg (show (1 : Fin 2) ∉ ([0] : List (Fin 2)) by decide)]
/-- Its window coordinate is `0` on the row axis (the inserted one) … -/
theorem scatRows_window_zero : (scatRows N E C wf).window (ix2 e c) 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)
/-- … and its own column on the column axis. -/
theorem scatRows_window_one : (scatRows N E C wf).window (ix2 e c) 1 = c.val := by
  unfold ScatterDims.window
  have hk : (1 : Fin 2) ∈ (scatRows N E C wf).sKept := by
    simp [ScatterDims.sKept, Shape.kept, List.mem_filter, List.mem_finRange]
  rw [dif_pos hk]
  rfl

/-- Update `(e, c)` lands on `(v, j)` exactly when the word `idx[e, 0]`, read signed, is `v` and the columns agree. -/
theorem scatRows_lands_iff (v : Fin N) (j : Fin C) :
    (scatRows N E C wf).resultIdx? (ix2 e c) idx = some (ix2 v j) ↔ (idx (ix2 e 0)).toInt = (v.val : Int) ∧ c = j := by
  rw [resultIdx?_eq_some_iff, Fin.forall_fin_two, scatRows_start_zero, scatRows_start_one, scatRows_window_zero,
    scatRows_window_one]
  show (idx (ix2 e 0)).toInt + ((0 : Nat) : Int) = (v.val : Int) ∧ (0 : Int) + (c.val : Int) = (j.val : Int) ↔ _
  constructor
  · rintro ⟨h0, h1⟩; exact ⟨by omega, Fin.ext (by omega)⟩
  · rintro ⟨h0, rfl⟩; exact ⟨by omega, by omega⟩

/-- THE ACCUMULATING SCATTER OF ROWS READ AT `(v, j)`: the operand there plus column `j` of every update whose word
    `idx[e, 0]`, read signed, is `v`. -/
theorem scatterAdd_rows_apply {φ : FTy} (x : FVec Ideal ⟨2, ![N, C]⟩ φ) (upd : FVec Ideal ⟨2, ![E, C]⟩ φ)
    (v : Fin N) (j : Fin C) :
    Host.scatterAdd (F := Ideal) (scatRows N E C wf) x idx upd (ix2 v j)
      = x (ix2 v j) + ∑ e ∈ Finset.univ.filter (fun e : Fin E => (idx (ix2 e 0)).toInt = (v.val : Int)), upd (ix2 e j) := by
  show x (ix2 v j) + ∑ jj ∈ Finset.univ.filter (fun jj => (scatRows N E C wf).resultIdx? jj idx = some (ix2 v j)), upd jj = _
  congr 1
  refine Finset.sum_nbij' (fun jj : (⟨2, ![E, C]⟩ : Shape).Idx => (jj 0 : Fin E)) (fun e => ix2 e j) ?_ ?_ ?_ ?_ ?_
  · intro jj hjj
    obtain ⟨e, c, rfl⟩ : ∃ e c, jj = ix2 e c := ⟨jj 0, jj 1, eq_ix2 jj⟩
    exact Finset.mem_filter.mpr ⟨Finset.mem_univ _,
      ((scatRows_lands_iff wf idx e c v j).mp (Finset.mem_filter.mp hjj).2).1⟩
  · intro e he
    exact Finset.mem_filter.mpr ⟨Finset.mem_univ _,
      (scatRows_lands_iff wf idx e j v j).mpr ⟨(Finset.mem_filter.mp he).2, rfl⟩⟩
  · intro jj hjj
    obtain ⟨e, c, rfl⟩ : ∃ e c, jj = ix2 e c := ⟨jj 0, jj 1, eq_ix2 jj⟩
    obtain ⟨-, rfl⟩ := (scatRows_lands_iff wf idx e c v j).mp (Finset.mem_filter.mp hjj).2
    rfl
  · intro e _
    rfl
  · intro jj hjj
    obtain ⟨e, c, rfl⟩ : ∃ e c, jj = ix2 e c := ⟨jj 0, jj 1, eq_ix2 jj⟩
    obtain ⟨-, rfl⟩ := (scatRows_lands_iff wf idx e c v j).mp (Finset.mem_filter.mp hjj).2
    rfl

end ScatterRows

/-! ## The gather of a flat array -/

section GatherFlat
variable {α : Type}

/-- The dimension numbers of `x[idx[:, 0]]` for a flat array `[N]`, start indices `[E, 1]` and result `[E]`: the one
    operand axis collapsed and named by the start index map, no offset axis, slices of one element. -/
abbrev gathFlat (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A record with the same literal lists is the builder. -/
example (N E : Nat) (hwf : GatherDims.WF ⟨1, ![N]⟩ ⟨2, ![E, 1]⟩ ⟨1, ![E]⟩ [] [0] [] [0] [] 1 ![1]) :
    (⟨[], [0], [], [], [0], 1, ![1], hwf⟩ : GatherDims ⟨1, ![N]⟩ ⟨2, ![E, 1]⟩ ⟨1, ![E]⟩) = gathFlat N E hwf := rfl

/-- THE FLAT GATHER READ AT `e`: the operand at the start word `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gathFlat N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gathFlat N E wf).start (ix1 e) idx 0 + (gathFlat N E wf).batchCoord (ix1 e) 0
    + (gathFlat N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N E wf).startIndexMap from List.mem_singleton.mpr rfl)]
  have hsi : (gathFlat N E wf).siIdx (ix1 e) ⟨List.idxOf (0 : Fin 1) (gathFlat N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end GatherFlat

/-! ## The accumulating scatter of single elements -/

section ScatterFlat

/-- The dimension numbers of `x.at[idx[:, 0]].add(upd)` for a flat array `[N]`, scatter indices `[E, 1]` and updates
    `[E]`: no window axis, the operand's one axis inserted and named by the index map. -/
abbrev scatFlat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A record with the same literal lists is the builder. -/
example (N E : Nat) (hwf : ScatterDims.WF ⟨1, ![N]⟩ ⟨2, ![E, 1]⟩ ⟨1, ![E]⟩ [] [0] [0] 1) :
    (⟨[], [0], [0], 1, hwf⟩ : ScatterDims ⟨1, ![N]⟩ ⟨2, ![E, 1]⟩ ⟨1, ![E]⟩) = scatFlat N E hwf := rfl

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the word `idx[e, 0]` read signed … -/
theorem scatFlat_start_zero : (scatFlat N E wf).start (ix1 e) idx 0 = (idx (ix2 e 0)).toInt := by
  unfold ScatterDims.start
  rw [dif_pos (show (0 : Fin 1) ∈ (scatFlat N E wf).scatterDimsToOperandDims from List.mem_singleton.mpr rfl)]
  have hsi : (scatFlat N E wf).siIdx (ix1 e) ⟨List.idxOf (0 : Fin 1) (scatFlat N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and its window coordinate is `0` (the one operand axis is the inserted one). -/
theorem scatFlat_window_zero : (scatFlat N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- Update `e` lands on `v` exactly when the word `idx[e, 0]`, read signed, is `v`. -/
theorem scatFlat_lands_iff (v : Fin N) :
    (scatFlat N E wf).resultIdx? (ix1 e) idx = some (ix1 v) ↔ (idx (ix2 e 0)).toInt = (v.val : Int) := by
  rw [resultIdx?_eq_some_iff, Fin.forall_fin_one, scatFlat_start_zero, scatFlat_window_zero]
  show (idx (ix2 e 0)).toInt + ((0 : Nat) : Int) = (v.val : Int) ↔ _
  constructor
  · intro h0; omega
  · intro h0; omega

/-- THE ACCUMULATING SCATTER OF SINGLE ELEMENTS READ AT `v`: the operand there plus every update whose word
    `idx[e, 0]`, read signed, is `v`. -/
theorem scatterAdd_flat_apply {φ : FTy} (x : FVec Ideal ⟨1, ![N]⟩ φ) (upd : FVec Ideal ⟨1, ![E]⟩ φ) (v : Fin N) :
    Host.scatterAdd (F := Ideal) (scatFlat N E wf) x idx upd (ix1 v)
      = x (ix1 v) + ∑ e ∈ Finset.univ.filter (fun e : Fin E => (idx (ix2 e 0)).toInt = (v.val : Int)), upd (ix1 e) := by
  show x (ix1 v) + ∑ jj ∈ Finset.univ.filter (fun jj => (scatFlat N E wf).resultIdx? jj idx = some (ix1 v)), upd jj = _
  congr 1
  refine Finset.sum_nbij' (fun jj : (⟨1, ![E]⟩ : Shape).Idx => (jj 0 : Fin E)) (fun e => ix1 e) ?_ ?_ ?_ ?_ ?_
  · intro jj hjj
    obtain ⟨e, rfl⟩ : ∃ e, jj = ix1 e := ⟨jj 0, eq_ix1 jj⟩
    exact Finset.mem_filter.mpr ⟨Finset.mem_univ _,
      (scatFlat_lands_iff wf idx e v).mp (Finset.mem_filter.mp hjj).2⟩
  · intro e he
    exact Finset.mem_filter.mpr ⟨Finset.mem_univ _, (scatFlat_lands_iff wf idx e v).mpr (Finset.mem_filter.mp he).2⟩
  · intro jj _
    exact (eq_ix1 jj).symm
  · intro e _
    rfl
  · intro jj _
    exact congrArg upd (eq_ix1 jj)

end ScatterFlat

end Idealize.ShloMosaic.EdgeScatter

end
-- ==== Proof.RefEnergy.lean ====
/-
  THE REFERENCE PROGRAM'S PER-EDGE ENERGY, READ AT ONE EDGE, on the extended reals.

  The reference takes a table of 100000 positions (three coordinates each) and, for each of 6400000 edges, a sender
  word and a receiver word. For every edge it computes one number, the pair energy, in these steps.

  Each index word is wrapped: a negative word has 100000 added to it (`gather_word` for the receiver's,
  `gather_word'` for the sender's; the two are the same text over the two inputs). A row gather then takes the row
  of the table the wrapped word names, read signed and clamped into the table; its dimension numbers are those of the
  row gather of a table with 100000 rows and 3 columns over 6400000 edges (`rec_eq`). The displacement of the edge is
  the receiver's row minus the sender's row, coordinate by coordinate.

  The three coordinates are squared and summed from zero along the coordinate axis: at edge `e` the sum is
  `0 + Σ_k d_k · d_k` with `d` the displacement (`ref_sumsq_apply`). Every later step acts on each edge alone: the square
  root of the sum, the reciprocal `1 / √s`, its power with the exponent 6, the power's square minus the power, and
  twice that difference. Read at edge `e` this chain is the closed form `refEnergy` of the displacement
  (`ref_energy_apply`). The float constants stay as their bit patterns throughout; none is evaluated.
-/
import proofs.«160772_j68332929679956_2_alg».proof.Proof.Gen.ReferenceIdeal.Read
import proofs.«160772_j68332929679956_2_alg».proof.Proof.PairEnergy
import proofs.«160772_j68332929679956_2_alg».proof.Proof.LibEdgeScatter
import Idealize.ShloMosaic.Lib.ValueIdx

noncomputable section

open scoped BigOperators

namespace Cert.ReferenceIdeal.Hand

open Idealize.ShloMosaic Idealize.ShloMosaic.ValueIdx Cert.ReferenceIdeal Cert.ReferenceIdeal.Read Cert.PairEnergy

/-- The reference's gather record is the row gather's dimension numbers at 100000 rows, 6400000 edges, 3 columns. -/
theorem rec_eq [Cert.ReferenceIdeal.Facts₀] :
    Cert.ReferenceIdeal.gather_S100000x3_S6400000x1_S6400000x3_1_0_n_n_0_1_13
      = EdgeScatter.gathRows 100000 6400000 3
          Cert.ReferenceIdeal.Facts₀.gather_S100000x3_S6400000x1_S6400000x3_1_0_n_n_0_1_13_wf := rfl

/-- The start word the first gather reads for edge e: the receiver word, wrapped. -/
theorem gather_word (x : (⟨S6400000, .i32⟩ : BufTy).Contents (Elt Ideal)) (e : Fin 6400000) :
    val_main_v5 (F := Ideal) x (ix2 e 0) = wrapWord (x (ix1 e)) := by
  rw [val_main_v5_apply, val_main_v4_apply, val_main_v1_apply, val_main_v3_apply, val_main_v0_apply,
    val_main_v2_apply, val_main_c_apply, val_main_c_0_apply]
  have h : idx_main_v5 (ix2 e 0) = ix1 e := by
    funext a; refine Fin.ext ?_
    match a with
    | ⟨0, _⟩ => rfl
  rw [h]
  rfl

/-- The start word the second gather reads for edge e: the sender word, wrapped. -/
theorem gather_word' (x : (⟨S6400000, .i32⟩ : BufTy).Contents (Elt Ideal)) (e : Fin 6400000) :
    val_main_v12 (F := Ideal) x (ix2 e 0) = wrapWord (x (ix1 e)) := by
  rw [val_main_v12_apply, val_main_v11_apply, val_main_v8_apply, val_main_v10_apply, val_main_v7_apply,
    val_main_v9_apply, val_main_c_1_apply, val_main_c_2_apply]
  have h : idx_main_v12 (ix2 e 0) = ix1 e := by
    funext a; refine Fin.ext ?_
    match a with
    | ⟨0, _⟩ => rfl
  rw [h]
  rfl

/-- The sum of squares the reference forms at edge e: zero plus the squared coordinates of the displacement. -/
theorem ref_sumsq_apply (x0 : (⟨S100000x3, .f32⟩ : BufTy).Contents (Elt Ideal))
    (x1 x2 : (⟨S6400000, .i32⟩ : BufTy).Contents (Elt Ideal)) (e : Fin 6400000) :
    val_main_v16 (F := Ideal) x0 x1 x2 (ix1 e)
      = Ideal.ofBits .f32 0x00000000#32
        + ∑ k : Fin 3, disp x0 (x1 (ix1 e)) (x2 (ix1 e)) k * disp x0 (x1 (ix1 e)) (x2 (ix1 e)) k := by
  rw [val_main_v16_apply, val_main_cst_apply]
  refine congrArg (_ + ·) (Finset.sum_congr rfl fun k _ => ?_)
  have hi : idx_main_v16 (ix1 e) k = ix2 e k := by
    funext a; refine Fin.ext ?_
    match a with
    | ⟨0, _⟩ => rfl
    | ⟨1, _⟩ => rfl
  rw [val_main_v15_apply, val_main_v14_apply, hi]
  unfold val_main_v6 val_main_v13
  rw [rec_eq, EdgeScatter.gather_rows_apply (by decide), EdgeScatter.gather_rows_apply (by decide)]
  simp only [gather_word, gather_word']
  rfl

/-- THE REFERENCE AT AN EDGE -/
theorem ref_energy_apply (x0 : (⟨S100000x3, .f32⟩ : BufTy).Contents (Elt Ideal))
    (x1 x2 : (⟨S6400000, .i32⟩ : BufTy).Contents (Elt Ideal)) (e : Fin 6400000) :
    val_main_v25 (F := Ideal) x0 x1 x2 (ix1 e) = refEnergy (fun k => disp x0 (x1 (ix1 e)) (x2 (ix1 e)) k) := by
  rw [val_main_v25_apply, val_main_v24_apply, val_main_cst_5_apply, val_main_v23_apply, val_main_v22_apply,
    val_main_v21_apply, val_main_v20_apply, val_main_cst_4_apply, val_main_v19_apply, val_main_v18_apply,
    val_main_cst_3_apply, val_main_v17_apply, ref_sumsq_apply]
  rfl

end Cert.ReferenceIdeal.Hand

end
-- ==== Proof.LibInverseSixth.lean ====
/-
# The inverse sixth power of a distance, two ways

A Lennard-Jones style interaction needs `r⁻⁶` where `s = r²` is a sum of three squares.
One formulation takes the reciprocal square root and raises it to the real power six,
`(1 / √s) ^ 6`; another multiplies the reciprocal of `s` with itself three times,
`1 · (1/s) · (1/s) · (1/s)`.

Over the extended reals, with division by zero of a positive numerator being `⊤`, with
`√⊤ = ⊤`, `⊤⁻¹ = 0`, and the power function's corners `⊤ ^ 6 = ⊤`, `0 ^ 6 = 0`, the two
expressions agree for every `s` in `[0, ⊤]`:

* `s = 0`: `√0 = 0`, `1/0 = ⊤`, `⊤ ^ 6 = ⊤`; on the other side `1 · ⊤ · ⊤ · ⊤ = ⊤`.
* `0 < s < ⊤`: everything is real, and `((√s)⁻¹)^6 = ((√s)^2)⁻¹^3 = (s⁻¹)^3`.
* `s = ⊤`: `√⊤ = ⊤`, `1/⊤ = 1 · 0 = 0`, `0 ^ 6 = 0`; on the other side `1 · 0 · 0 · 0 = 0`.

A sum of three squares of extended reals always lies in `[0, ⊤]` (note `⊥ · ⊥ = ⊤`), so the
law applies to it unconditionally.

The file also evaluates the two binary32 patterns of `1.0` and `6.0`, and unfolds a sum over
three indices that is started at zero.
-/
import Mathlib
import Idealize.ShloMosaic.PureOps.Ideal

open Idealize.ShloMosaic

namespace Idealize.ShloMosaic.InverseSixth

noncomputable section

/-- a square is nonnegative on the extended reals (`⊥ · ⊥ = ⊤`) -/
theorem mul_self_nonneg (x : EReal) : 0 ≤ x * x := by
  induction x using EReal.rec with
  | bot => simp
  | coe r =>
    rw [← EReal.coe_mul]
    exact_mod_cast _root_.mul_self_nonneg r
  | top => simp

theorem sum_three_squares_nonneg (a b c : EReal) : 0 ≤ a * a + b * b + c * c :=
  add_nonneg (add_nonneg (mul_self_nonneg a) (mul_self_nonneg b)) (mul_self_nonneg c)

/-- The inverse sixth power law: `(1 / √s) ^ 6 = 1 · (1/s) · (1/s) · (1/s)` on `[0, ⊤]`. -/
theorem pow_six_div_sqrt (s : EReal) (hs : 0 ≤ s) :
    Ideal.pow (Ideal.div ((1 : ℝ) : EReal) (Ideal.sqrt s)) ((6 : ℝ) : EReal)
      = ((1 : ℝ) : EReal) * Ideal.div ((1 : ℝ) : EReal) s * Ideal.div ((1 : ℝ) : EReal) s
          * Ideal.div ((1 : ℝ) : EReal) s := by
  induction s using EReal.rec with
  | bot => exact absurd hs (by simp)
  | coe r =>
    have hr : 0 ≤ r := by exact_mod_cast hs
    rcases hr.eq_or_lt with h0 | hpos
    · -- the zero corner: both sides are `⊤`
      subst h0
      have hsq : Ideal.sqrt ((0 : ℝ) : EReal) = 0 := by
        rw [Ideal.sqrt_coe, if_neg (lt_irrefl 0), Real.sqrt_zero, EReal.coe_zero]
      have hd : Ideal.div ((1 : ℝ) : EReal) (0 : EReal) = ⊤ := by
        simp [Ideal.div]
      rw [hsq, EReal.coe_zero, hd]
      simp
    · -- the positive real case: an identity of real numbers
      have hsqpos : 0 < Real.sqrt r := Real.sqrt_pos.mpr hpos
      have hsq : Ideal.sqrt (r : EReal) = ((Real.sqrt r : ℝ) : EReal) := by
        rw [Ideal.sqrt_coe, if_neg (not_lt.mpr hpos.le)]
      rw [hsq, Ideal.div_coe hsqpos.ne', Ideal.div_coe hpos.ne']
      rw [← EReal.coe_mul, ← EReal.coe_mul, ← EReal.coe_mul, ← EReal.coe_mul, Ideal.pow_coe_coe]
      congr 1
      show (1 * (1 / Real.sqrt r)) ^ (6 : ℝ) = _
      have h6 : (6 : ℝ) = ((6 : ℕ) : ℝ) := by norm_num
      rw [h6, Real.rpow_natCast]
      have hr2 : Real.sqrt r ^ 2 = r := Real.sq_sqrt hpos.le
      have : Real.sqrt r ^ 6 = r ^ 3 := by
        calc Real.sqrt r ^ 6 = (Real.sqrt r ^ 2) ^ 3 := by ring
          _ = r ^ 3 := by rw [hr2]
      field_simp
      linarith [this]
  | top =>
    -- the infinite corner: both sides are `0`
    have hd : Ideal.div ((1 : ℝ) : EReal) (⊤ : EReal) = ((0 : ℝ) : EReal) := by
      simp [Ideal.div]
    rw [Ideal.sqrt_top, hd, Ideal.pow_coe_coe]
    simp

/-- the binary32 pattern of `1.0` -/
theorem ofBits_one : Ideal.ofBits .f32 0x3F800000#32 = ((1 : ℝ) : EReal) := by
  simp [Ideal.ofBits, Ideal.ieee, -EReal.coe_mul]
  norm_num

/-- the binary32 pattern of `6.0` -/
theorem ofBits_six : Ideal.ofBits .f32 0x40C00000#32 = ((6 : ℝ) : EReal) := by
  simp [Ideal.ofBits, Ideal.ieee, -EReal.coe_mul]
  norm_num

/-- a three-term sum started at zero, associated to the left -/
theorem zero_add_sum_three (f : Fin 3 → EReal) :
    (0 : EReal) + ∑ k : Fin 3, f k = f 0 + f 1 + f 2 := by
  rw [zero_add, Fin.sum_univ_three]

end

end Idealize.ShloMosaic.InverseSixth
-- ==== Proof.EnergyLaw.lean ====
/-
# The pair energy of one edge, two ways

From the three coordinates `d₀, d₁, d₂` of an edge's displacement, one program forms the squared
length `s = (d₀·d₀ + d₁·d₁) + d₂·d₂`, its reciprocal `u = 1 / s`, the cube `w = ((1·u)·u)·u`, and the
energy `2·(w·w − w)`. The other forms `s' = 0 + Σₖ dₖ·dₖ`, the power `v = (1 / √s') ^ 6`, and the
energy `2·(v·v − v)`.

On the extended reals these are the same number:

* `s' = s`: a sum over three indices started at zero is the left-associated sum of its three terms;
* `s` is a sum of three squares, hence lies in `[0, ⊤]`;
* on `[0, ⊤]` the inverse sixth power law gives `(1 / √s) ^ 6 = 1 · (1/s) · (1/s) · (1/s)`, so `v = w`;
* the two energies are then the same expression in `w` (the factor 2 is the same literal on both sides).
-/
import proofs.«160772_j68332929679956_2_alg».proof.Proof.PairEnergy
import proofs.«160772_j68332929679956_2_alg».proof.Proof.LibInverseSixth

noncomputable section

open scoped BigOperators

namespace Cert.PairEnergy

open Idealize.ShloMosaic Idealize.ShloMosaic.InverseSixth

/-- the binary32 pattern of `0.0` -/
theorem ofBits_zero : Ideal.ofBits .f32 0x00000000#32 = (0 : EReal) := by
  simp [Ideal.ofBits, Ideal.ieee, -EReal.coe_mul]

/-- The law, per edge: twice `w·w − w` with `w` the inverse sixth power of the length, however it is
    computed. -/
theorem edgeEnergy_eq_refEnergy (d : Fin 3 → EReal) :
    edgeEnergy (F := Ideal) (d 0) (d 1) (d 2) = refEnergy d := by
  unfold edgeEnergy refEnergy
  simp only [Ideal.mulf_def, Ideal.subf_def, Ideal.addf_def, Ideal.divf_def, Ideal.ofBits_def]
  rw [ofBits_zero, ofBits_one, ofBits_six, zero_add_sum_three (fun k => d k * d k)]
  have hs : (0 : EReal) ≤ d 0 * d 0 + d 1 * d 1 + d 2 * d 2 :=
    sum_three_squares_nonneg (d 0) (d 1) (d 2)
  rw [pow_six_div_sqrt _ hs]

end Cert.PairEnergy

end
-- ==== Proof.Bridge.lean ====
/-
  The two programs compute one function of their arguments.

  Both end with the same scatter: every edge's energy is added onto its receiver's entry of a zero array, the
  receivers read unwrapped in both. So it suffices that the two flat arrays of edge energies agree, edge by edge.
  At edge e both programs read the same two rows of the position table (the wrapped, clamped sender and receiver
  words) and subtract them — the kernel out of the transposed table, coordinate-major, the reference out of the
  table's rows — so both see the same displacement (d0, d1, d2) (`kernel_energy_apply`, `ref_energy_apply`); and on
  the extended reals the kernel's 2·(w·w − w) with w = ((1·u)·u)·u, u = 1 / (d0² + d1² + d2²), is the reference's
  2·(v·v − v) with v = (1 / √(0 + Σ dk²))^6 (`edgeEnergy_eq_refEnergy`: a sum of squares lies in [0, ⊤], and the two
  inverse sixth powers agree at 0, at a positive real and at ⊤).
-/
import proofs.«160772_j68332929679956_2_alg».proof.Proof.KernelRun
import proofs.«160772_j68332929679956_2_alg».proof.Proof.KernelAtEdge
import proofs.«160772_j68332929679956_2_alg».proof.Proof.RefEnergy
import proofs.«160772_j68332929679956_2_alg».proof.Proof.EnergyLaw

noncomputable section

open Idealize.ShloMosaic Idealize.ShloMosaic.ValueIdx Idealize.SL.Sem

namespace Cert.Bridge

open Cert.PairEnergy

/-- The kernel program's flat array of edge energies is the reference's. -/
theorem energies_eq (x0 : (⟨Cert.ReferenceIdeal.S100000x3, .f32⟩ : BufTy).Contents (Elt Ideal))
    (x1 x2 : (⟨Cert.ReferenceIdeal.S6400000, .i32⟩ : BufTy).Contents (Elt Ideal)) :
    shapeCast Cert.KernelIdeal.S6400000
        (Cert.KernelIdeal.Hand.energyGrid (F := Ideal) (Cert.KernelIdeal.Hand.dispGrid (F := Ideal) x0 x1 x2))
        Cert.KernelIdeal.Facts₀.shapeCasts_S50000x128_S6400000
      = Cert.ReferenceIdeal.Read.val_main_v25 (F := Ideal) x0 x1 x2 := by
  funext i
  obtain ⟨e, rfl⟩ : ∃ e : Fin 6400000, i = ix1 e := ⟨i 0, eq_ix1 i⟩
  rw [Cert.KernelIdeal.Hand.kernel_energy_apply, Cert.ReferenceIdeal.Hand.ref_energy_apply]
  exact edgeEnergy_eq_refEnergy (fun k => disp x0 (x1 (ix1 e)) (x2 (ix1 e)) k)

/-- THE TWO RESULTS ARE ONE FUNCTION of the arguments. -/
theorem result_eq (x0 : (⟨Cert.ReferenceIdeal.S100000x3, .f32⟩ : BufTy).Contents (Elt Ideal))
    (x1 x2 : (⟨Cert.ReferenceIdeal.S6400000, .i32⟩ : BufTy).Contents (Elt Ideal)) :
    Cert.ReferenceIdeal.Read.val_main_v28 (F := Ideal) x0 x1 x2
      = Cert.KernelIdeal.Hand.programResult (F := Ideal) x0 x1 x2 := by
  unfold Cert.KernelIdeal.Hand.programResult Cert.KernelIdeal.Hand.scatterEnergies Cert.ReferenceIdeal.Read.val_main_v28
  rw [energies_eq x0 x1 x2]
  rfl

end Cert.Bridge

end
-- ==== Proof.lean ====
/- The proof of `Cert.Claim`: a Lennard-Jones energy kernel against its jnp reference, on the extended reals.

   Both programs take a table of 100000 positions and, per edge, a sender and a receiver word; both gather the two
   positions of every edge, form the displacement, turn it into a pair energy and add the energies onto the
   receivers. They differ in layout (the kernel transposes the table, gathers columns, and runs its arithmetic on
   [3, 50000, 128] blocks inside a pallas_call) and in how the inverse sixth power of the length is formed: the
   kernel multiplies the reciprocal of the squared length three times, the reference raises the reciprocal of the
   length (a square root) to the float power 6.0. The squared length is a sum of three squares, an extended real in
   [0, ⊤], and there the two agree: both are ⊤ at 0, the same real at a positive real, and 0 at ⊤
   (Proof/LibInverseSixth.lean, Proof/EnergyLaw.lean). The precondition is not needed for that.

   The modules: Proof/PairEnergy.lean (the per-edge vocabulary), Proof/EdgeEnergy.lean (the kernel body at an edge),
   Proof/EnergyGrid.lean (from the blocks the grid points write back to the whole result array),
   Proof/HostStages.lean and Proof/HostRead.lean (the host lines before and after the call), Proof/KernelRun.lean (the
   kernel program's run with its result named), Proof/KernelAtEdge.lean and Proof/RefEnergy.lean (each program's
   array of edge energies read at one edge), Proof/Bridge.lean (the two results are one function). The frames of the
   two kernel programs are the generated ones; the reference's frame is its generated run with the result dropped;
   the ideal pass rewrote nothing, so `preserves` is trivial. -/
import proofs.«160772_j68332929679956_2_alg».proof.Defs
import proofs.«160772_j68332929679956_2_alg».proof.Proof.Gen.Kernel
import proofs.«160772_j68332929679956_2_alg».proof.Proof.Gen.Kernel.Skeleton
import proofs.«160772_j68332929679956_2_alg».proof.Proof.Gen.Kernel.Launch
import proofs.«160772_j68332929679956_2_alg».proof.Proof.Gen.Kernel.Points
import proofs.«160772_j68332929679956_2_alg».proof.Proof.Gen.Kernel.Frame
import proofs.«160772_j68332929679956_2_alg».proof.Proof.Gen.KernelIdeal
import proofs.«160772_j68332929679956_2_alg».proof.Proof.Gen.KernelIdeal.Skeleton
import proofs.«160772_j68332929679956_2_alg».proof.Proof.Gen.KernelIdeal.Launch
import proofs.«160772_j68332929679956_2_alg».proof.Proof.Gen.KernelIdeal.Points
import proofs.«160772_j68332929679956_2_alg».proof.Proof.Gen.KernelIdeal.Frame
import proofs.«160772_j68332929679956_2_alg».proof.Proof.Gen.ReferenceIdeal
import proofs.«160772_j68332929679956_2_alg».proof.Proof.Gen.Pre_finite_inputs
import proofs.«160772_j68332929679956_2_alg».proof.Proof.Gen.ReferenceIdeal.Run
import proofs.«160772_j68332929679956_2_alg».proof.Proof.Gen.ReferenceIdeal.Read
import proofs.«160772_j68332929679956_2_alg».proof.Proof.KernelRun
import proofs.«160772_j68332929679956_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel program's result is `programResult` of the arguments and the reference's is its
    last stage of arguments that agree with them: one function (`Cert.Bridge.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.programResult (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2]
  exact Cert.Bridge.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
